-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) (main_arg1 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  main_v3
-- ==== Kernel.lean ====
abbrev S65536x512 : Shape := ⟨2, ![65536, 512]⟩
abbrev S65536 : Shape := ⟨1, ![65536]⟩
abbrev S64x512 : Shape := ⟨2, ![64, 512]⟩
abbrev S1024x512 : Shape := ⟨2, ![1024, 512]⟩
abbrev S8x512 : Shape := ⟨2, ![8, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x512 : Shape := ⟨2, ![1, 512]⟩
abbrev S8x1 : Shape := ⟨2, ![8, 1]⟩

abbrev nBuf : Space → Nat
  | .hbm => 3
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S64x512, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_13 : BitVec 32 := 0#32
  let v41 : BitVec 1 := Scalar.cmpi .ne v40 c0_i32_13
  v41

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  iota_S8x1_d0_w32 : S8x1.Iotas .tc 32 [0]
  natLt_1_32 : 1 < 32
  broadcasts_S8x1_S8x512 : S8x1.Broadcasts S8x512
  broadcasts_S1x512_S8x512 : S1x512.Broadcasts S8x512
  dot_S1024x512_S1024x512_S1024x1024_1_1_0_0_n_n_wf : DotDims.WF S1024x512 S1024x512 S1024x1024 [1] [1] [0] [0] [] []
  dot_S1x1024_S1024x512_S1x512_1_0_0_1_n_n_wf : DotDims.WF S1x1024 S1024x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S64x512.size a
  hwx0_1 : ∀ i : grid0.Coords, EltTy.bits .f32 = 32 ∨ (Rect.block (s := S64x512) S8x512.size (cc0_transform_1 i) (hinb0_1 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S65536x512 : Shape := ⟨2, ![65536, 512]⟩
abbrev S65536 : Shape := ⟨1, ![65536]⟩
abbrev S64x1024x512 : Shape := ⟨3, ![64, 1024, 512]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩
abbrev S64x512 : Shape := ⟨2, ![64, 512]⟩

abbrev nBuf : Space → Nat
  | .hbm => 27
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S64x1024x512, .f32⟩
  | .hbm, ⟨3, _⟩ => ⟨S64x1024x1024, .f32⟩
  | .hbm, ⟨4, _⟩ => ⟨S_, .f32⟩
  | .hbm, ⟨5, _⟩ => ⟨S64x1024x1024, .f32⟩
  | .hbm, ⟨6, _⟩ => ⟨S64x1024x1024, .f32⟩
  | .hbm, ⟨7, _⟩ => ⟨S_, .f32⟩
  | .hbm, ⟨8, _⟩ => ⟨S64x1024, .f32⟩
  | .hbm, ⟨9, _⟩ => ⟨S_, .f32⟩
  | .hbm, ⟨10, _⟩ => ⟨S64x1024, .f32⟩
  | .hbm, ⟨11, _⟩ => ⟨S64x1024, .f32⟩
  | .hbm, ⟨12, _⟩ => ⟨S64x1024x1, .f32⟩
  | .hbm, ⟨13, _⟩ => ⟨S64x1024x1024, .f32⟩
  | .hbm, ⟨14, _⟩ => ⟨S64x1024x1024, .f32⟩
  | .hbm, ⟨15, _⟩ => ⟨S64x1024x1024, .f32⟩
  | .hbm, ⟨16, _⟩ => ⟨S_, .f32⟩
  | .hbm, ⟨17, _⟩ => ⟨S64x1024, .f32⟩
  | .hbm, ⟨18, _⟩ => ⟨S64x1024x1, .f32⟩
  | .hbm, ⟨19, _⟩ => ⟨S64x1024x1024, .f32⟩
  | .hbm, ⟨20, _⟩ => ⟨S64x1024x1024, .f32⟩
  | .hbm, ⟨21, _⟩ => ⟨S64x1024x512, .f32⟩
  | .hbm, ⟨22, _⟩ => ⟨S_, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  shapeCasts_S65536x512_S64x1024x512 : S65536x512.ShapeCasts S64x1024x512
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  reducesTo_S64x1024x512_S64x512_d1 : S64x1024x512.ReducesTo [1] S64x512
  bcast_S_S64x512 : S_.BroadcastsInDim S64x512 (![] : Fin 0 → Fin S64x512.rank)
  dot_S64x1024x512_S64x1024x512_S64x1024x1024_2_2_1_1_0_0_wf : DotDims.WF S64x1024x512 S64x1024x512 S64x1024x1024 [2] [2] [1] [1] [0] [0]
  dot_S64x1024x1024_S64x1024x512_S64x1024x512_2_1_1_2_0_0_wf : DotDims.WF S64x1024x1024 S64x1024x512 S64x1024x512 [2] [1] [1] [2] [0] [0]

variable [Facts₀]

def dot_S64x1024x512_S64x1024x512_S64x1024x1024_2_2_1_1_0_0 : DotDims S64x1024x512 S64x1024x512 S64x1024x1024 where
  lhsContracting := [2]
  rhsContracting := [2]
  lhsNonContracting := [1]
  rhsNonContracting := [1]
  lhsBatch := [0]
  rhsBatch := [0]
  wf := dot_S64x1024x512_S64x1024x512_S64x1024x1024_2_2_1_1_0_0_wf
def dot_S64x1024x1024_S64x1024x512_S64x1024x512_2_1_1_2_0_0 : DotDims S64x1024x1024 S64x1024x512 S64x1024x512 where
  lhsContracting := [2]
  rhsContracting := [1]
  lhsNonContracting := [1]
  rhsNonContracting := [2]
  lhsBatch := [0]
  rhsBatch := [0]
  wf := dot_S64x1024x1024_S64x1024x512_S64x1024x512_2_1_1_2_0_0_wf

class Facts : Prop extends Facts₀ where

variable [Facts]
-- ==== Proof.KernelPieces.lean ====
/-
  What each kind of grid step leaves behind, as values.

  A step of the kernel is of one of three kinds, by its position in its chunk of eight: the first step of a chunk
  clears the accumulator and then accumulates; a middle step accumulates; the last step of a chunk accumulates and
  then copies the accumulator into the output block. "Accumulates" is one whole-buffer store of the step's value
  `k0_pay2` of the step's input block and of what the accumulator held when the step loaded it. Read back as values:
  after a first step the accumulator holds the step's value over the cleared buffer, after a middle or last step the
  step's value over what the step before left, and a last step leaves in the output block exactly what it leaves in
  the accumulator. Every store covers its whole buffer, so each read-back is the last store's value.
-/
import proofs.«142649_j66855460930242_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pool

open Cert.KernelIdeal Cert.KernelIdeal.Gen

variable {F : FTy → Type} [FloatOps F]

theorem offs_zero : (![0, 0] : Fin 2 → Nat) = fun _ => 0 := funext fun a => by fin_cases a <;> rfl

/-- A first step of a chunk leaves in the accumulator its value over the cleared buffer. -/
theorem acc_first (c : Dev nD) (i : grid0.Coords) (arg2 : Memref sig .tc .vmem S1024x512 .f32) (harg2 : arg2.IsWhole) (arg3 : Memref sig .tc .vmem S8x512 .f32) (harg3 : arg3.IsWhole) (arg4 : Memref sig .tc .vmem S8x512 .f32) (harg4 : arg4.IsWhole) (hc0 : cond0_0 i) (hc1 : ¬cond0_1 i)
    (x0 : Vec F S1024x512 .f32) :
    sout0_A_0 c i arg2 harg2 arg3 harg3 arg4 harg4 hc0 hc1 x0 = k0_pay2 i x0 (k0_pay1 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S8x512) offs_zero, View.readCov_unit_zero (S := S8x512) _ offs_zero]
  simp only [View.readAt_eq_ld, harg2.read_unread, View.ld_unit_zero (S := S1024x512) offs_zero]

/-- A middle step leaves in the accumulator its value over what the step before left. -/
theorem acc_middle (c : Dev nD) (i : grid0.Coords) (arg2 : Memref sig .tc .vmem S1024x512 .f32) (harg2 : arg2.IsWhole) (arg3 : Memref sig .tc .vmem S8x512 .f32) (harg3 : arg3.IsWhole) (arg4 : Memref sig .tc .vmem S8x512 .f32) (harg4 : arg4.IsWhole) (hc0 : ¬cond0_0 i) (hc1 : ¬cond0_1 i)
    (x0 : Vec F S1024x512 .f32) (xs0 : Vec F S8x512 .f32) :
    sout0_B_0 c i arg2 harg2 arg3 harg3 arg4 harg4 hc0 hc1 x0 xs0 = k0_pay2 i x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero offs_zero]
  simp only [View.readAt_eq_ld, harg2.read_unread, harg4.read_unread, View.ld_unit_zero (S := S1024x512) offs_zero,
    View.ld_unit_zero (S := S8x512) offs_zero]

/-- A last step of a chunk leaves in the accumulator its value over what the step before left … -/
theorem acc_last (c : Dev nD) (i : grid0.Coords) (arg2 : Memref sig .tc .vmem S1024x512 .f32) (harg2 : arg2.IsWhole) (arg3 : Memref sig .tc .vmem S8x512 .f32) (harg3 : arg3.IsWhole) (arg4 : Memref sig .tc .vmem S8x512 .f32) (harg4 : arg4.IsWhole) (hc0 : ¬cond0_0 i) (hc1 : cond0_1 i)
    (x0 : Vec F S1024x512 .f32) (xs0 : Vec F S8x512 .f32) :
    sout0_C_0 c i arg2 harg2 arg3 harg3 arg4 harg4 hc0 hc1 x0 xs0 = k0_pay2 i x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero offs_zero]
  simp only [View.readAt_eq_ld, harg2.read_unread, harg4.read_unread, View.ld_unit_zero (S := S1024x512) offs_zero,
    View.ld_unit_zero (S := S8x512) offs_zero]

/-- … and the same in the output block: it stores there what it reads back from the accumulator. -/
theorem out_last (c : Dev nD) (i : grid0.Coords) (arg2 : Memref sig .tc .vmem S1024x512 .f32) (harg2 : arg2.IsWhole) (arg3 : Memref sig .tc .vmem S8x512 .f32) (harg3 : arg3.IsWhole) (arg4 : Memref sig .tc .vmem S8x512 .f32) (harg4 : arg4.IsWhole) (hc0 : ¬cond0_0 i) (hc1 : cond0_1 i)
    (x0 : Vec F S1024x512 .f32) (xs0 : Vec F S8x512 .f32) :
    out0_C_1 c i arg2 harg2 arg3 harg3 arg4 harg4 hc0 hc1 x0 xs0 = k0_pay2 i x0 xs0 := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero offs_zero, View.readCov_unit_zero (S := S8x512) _ offs_zero]
  simp only [View.readAt_eq_ld, harg2.read_unread, harg4.read_unread, View.ld_unit_zero (S := S1024x512) offs_zero,
    View.ld_unit_zero (S := S8x512) offs_zero]

end Cert.KernelIdeal.Pool

end
-- ==== Proof.LibKeepdims.lean ====
/-
  Layout and reduction facts a row-wise kernel needs when its payload is read at one index, over the extended reals:
  the column forms of a "keep the reduced axis" computation — a vector of row values viewed as a one-column matrix,
  and a one-column matrix spread over every column —, a row's maximum as the fold of `max` over the row's entries, the
  two binary words that encode `-∞`, and the two pointwise operations (absolute value, rounding to even) at an index.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section AtIdeal
variable {s : Shape} {φ : FTy}

/-- An absolute value at an index is the larger of the element and its negation … -/
theorem absf_apply (a : FVec Ideal s φ) (i : s.Idx) : absf a i = max (a i) (-(a i)) := rfl
/-- … and a rounding to even rounds the element. -/
theorem roundeven_apply (a : FVec Ideal s φ) (i : s.Idx) : roundeven a i = Ideal.liftRound Ideal.roundHalfEven (a i) := rfl

end AtIdeal

/-- At the extended reals a scalar constant is what its word denotes. -/
theorem scalar_ofBits (φ : FTy) (b : BitVec φ.bits) : Scalar.ofBits (F := Ideal) φ b = Ideal.ofBits φ b := rfl

/-- The f32 word `0xFF800000` is `-∞`. -/
theorem negInf_f32 : Ideal.ofBits .f32 0xFF800000#32 = (⊥ : EReal) := by simp [Ideal.ofBits, Ideal.ieee]
/-- The bf16 word `0xFF80` is `-∞`. -/
theorem negInf_bf16 : Ideal.ofBits .bf16 0xFF80#16 = (⊥ : EReal) := by simp [Ideal.ofBits, Ideal.ieee]

/-- A row's maximum: the `maximumf` reduction of an `[a, b]` array over its columns reads, at row `p`, the fold of
    `max` from the accumulator's value over the row's `b` entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (src ∘ h.lift (ix1 p)) = _
  congr 1
  funext k
  show src (h.lift (ix1 p) k) = src (ix2 p k)
  congr 1
  funext d; apply Fin.ext
  match d with
  | ⟨0, _⟩ => rfl
  | ⟨1, _⟩ => rfl

end Cert.LibKeepdims
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.LibRowSum.lean ====
/-
  A lane sum read at one row, over the extended reals: summing an [a, b] array along its second coordinate gives, at
  row p, the sum over the b entries of that row — for any extents and any float format. The inserted index that the
  library's one-axis reduction law speaks of is, at literal rank two, the pair (p, k).
-/
import Idealize.ShloMosaic.Lib.ValueIdx
import Idealize.ShloMosaic.PureOps.Ideal.Laws

open scoped BigOperators

namespace Cert.LibRowSum

open Idealize.ShloMosaic Idealize.ShloMosaic.ValueIdx

/-- A row's sum: the `add` reduction of an `[a, b]` array over its columns reads, at row `p`, the sum of the row's
    `b` entries (the accumulator is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src ?_
  funext d; apply Fin.ext
  match d with
  | ⟨0, _⟩ => rfl
  | ⟨1, _⟩ => rfl

end Cert.LibRowSum
-- ==== Proof.LibColSum.lean ====
/-
  A sublane sum read at one column, over the extended reals: summing an [a, b] array along its FIRST coordinate gives,
  at column q, the sum over the a entries of that column — for any extents and any float format. The inserted index
  that the library's one-axis reduction law speaks of is, at literal rank two, the pair (k, q).
-/
import Idealize.ShloMosaic.Lib.ValueIdx
import Idealize.ShloMosaic.PureOps.Ideal.Laws

open scoped BigOperators

namespace Cert.LibColSum

open Idealize.ShloMosaic Idealize.ShloMosaic.ValueIdx

/-- A column's sum: the `add` reduction of an `[a, b]` array over its rows reads, at column `q`, the sum of the
    column's `a` entries (the accumulator is the sum's neutral element, so it contributes nothing). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  show ∑ k : Fin a, src (h.lift (ix1 q) k) = _
  refine Finset.sum_congr rfl fun k _ => congrArg src ?_
  funext d; apply Fin.ext
  match d with
  | ⟨0, _⟩ => rfl
  | ⟨1, _⟩ => rfl

end Cert.LibColSum
-- ==== Proof.LibMaskedMean.lean ====
/-
  The one algebraic law that joins the two programs, stated over abstract finite index types and proved
  on the extended reals; it mentions no program.

  A row of length `n` (`1 ≤ n`) of finite reals `x s`, `s` ranging over a finite index type, is averaged in two
  ways. One way multiplies every entry by a mask that is `1` on the row's first `n` positions and `0` on
  the padding, sums ALL positions, and divides by `n`. The other sums the first `n` positions only and
  multiplies by the reciprocal `1 / n`. On the extended reals the two agree because
  (a) `x · 0 = 0` and `x · 1 = x` for a FINITE `x` (at `±∞` the product with `0` is a convention, which is
      why finiteness of the entries is used), so the masked sum over all positions is the plain sum over
      the first `n`;
  (b) a sum of finite reals is a finite real, and for a real `n ≠ 0` the quotient by `n` of any extended
      real is its product with the real `1 / n`, which in turn is the quotient `1 / n` itself.
-/
import Idealize.ShloMosaic.PureOps.Ideal
import Mathlib.Algebra.BigOperators.Group.Finset.Basic
import Mathlib.Data.EReal.Basic

noncomputable section

namespace Cert.LibMaskedMean

open Idealize.ShloMosaic

/-- The coercion of the reals into the extended reals carries a finite sum to the sum of the coercions. -/
theorem coe_sum {ι : Type} (S : Finset ι) (f : ι → ℝ) :
    ((∑ s ∈ S, f s : ℝ) : EReal) = ∑ s ∈ S, ((f s : ℝ) : EReal) := by
  classical
  induction S using Finset.induction_on with
  | empty => simp
  | insert a S ha ih => rw [Finset.sum_insert ha, Finset.sum_insert ha, EReal.coe_add, ih]

/-- (a) A finite entry times the mask's `1` is the entry, times its `0` is `0`: the masked sum over every
    position is the real sum over the positions the mask keeps. -/
theorem masked_sum {ι : Type} [Fintype ι] (x : ι → ℝ) (keep : ι → Prop) [DecidablePred keep] :
    (∑ s, ((x s : ℝ) : EReal) * (if keep s then (1 : EReal) else 0))
      = ((∑ s ∈ Finset.univ.filter keep, x s : ℝ) : EReal) := by
  classical
  rw [coe_sum, Finset.sum_filter]
  refine Finset.sum_congr rfl fun s _ => ?_
  by_cases h : keep s
  · simp [h]
  · simp [h]

/-- (b) For a real `n ≠ 0`: the quotient of an extended real by `n` is its product with the quotient `1 / n`. -/
theorem div_eq_mul_one_div {n : ℝ} (hn : n ≠ 0) (S : EReal) :
    Ideal.div S (n : EReal) = S * Ideal.div 1 (n : EReal) := by
  rw [Ideal.div_coe hn, Ideal.div_coe hn, one_mul]

end Cert.LibMaskedMean

end
-- ==== Proof.PoolLaw.lean ====
/-
  Mean-pooled self-attention of one group of rows, over the extended reals, two ways, and the law that joins them.
  It mentions no program.

  A group is a matrix `X` of rows `l` and features `d`. Its score matrix is `sc l m = s · ∑ d, X l d · X m d` for a
  fixed scale `s`; the softmax weight of key `m` for query `l` is `w l m = exp (sc l m - top l) / ∑ k, exp (sc l k - top l)`
  with `top l` the largest score of row `l`; the attended row is `∑ m, w l m · X m d`, and the group's result is its mean
  over the queries `l`.

  One way (`poolK`) puts the scale on the query before the product, `∑ d, (X l d · s) · X m d`, averages the WEIGHTS
  over the queries first and contracts once with `X`: `∑ m, ((∑ l, w l m) / n) · X m d`. The other (`poolR`) scales the
  finished product, forms every attended row and averages those: `(∑ l, ∑ m, w l m · X m d) / n`.

  For FINITE entries the two agree. The scores are then reals, and a factor moves across a finite sum of reals; a
  row of reals has a real largest entry, so every exponential is a positive real, the normalising sum is a positive
  real and every weight is a real; and for real weights and entries the two averages differ by an exchange of two
  finite sums and by moving the division by `n` across a sum. Each of these steps is false in general at infinite
  entries (a product with `0`, a difference of infinities), which is why finiteness is assumed.
-/
import Idealize.ShloMosaic.PureOps.Ideal.Laws
import proofs.«142649_j66855460930242_2_alg».proof.Proof.LibMaskedMean
import proofs.«142649_j66855460930242_2_alg».proof.Proof.LibKeepdims

open scoped BigOperators

noncomputable section

namespace Cert.AttnPool

open Idealize.ShloMosaic

/-- The word of `-∞`, from which a row's largest score is folded. -/
abbrev negInfW : EReal := Ideal.ofBits .f32 0xFF800000#32
/-- The word of the scale `s`. -/
abbrev scaleW : EReal := Ideal.ofBits .f32 0x3D3504F3#32
/-- The word of the number of queries `n = 1024`. -/
abbrev countW : EReal := Ideal.ofBits .f32 0x44800000#32

/-- The count word denotes the real `1024`. -/
theorem countW_eq : countW = ((1024 : ℝ) : EReal) := by
  simp [Ideal.ofBits, Ideal.ieee, -EReal.coe_mul]; norm_num

/-- The scale word denotes a real (a normal number: neither an infinity nor junk). -/
theorem scaleW_real : ∃ s : ℝ, scaleW = (s : EReal) := by
  simp [Ideal.ofBits, Ideal.ieee, -EReal.coe_mul]

variable {ι κ : Type} [Fintype ι] [Fintype κ]

/-- The scores with the scale folded into the query. -/
def scoreK (X : ι → κ → EReal) (l m : ι) : EReal := ∑ d, X l d * scaleW * X m d
/-- The scores with the scale applied to the finished product. -/
def scoreR (X : ι → κ → EReal) (l m : ι) : EReal := (∑ d, X l d * X m d) * scaleW
/-- The largest score of row `l` (never below `-∞`). -/
def rowTop (sc : ι → ι → EReal) (l : ι) : EReal := max negInfW (Finset.univ.fold max negInfW (fun k => sc l k))
/-- The exponential of a score shifted by its row's largest. -/
def expo (sc : ι → ι → EReal) (l m : ι) : EReal := Ideal.exp (sc l m - rowTop sc l)
/-- The softmax weight of key `m` for query `l`. -/
def wgt (sc : ι → ι → EReal) (l m : ι) : EReal := Ideal.div (expo sc l m) (∑ k, expo sc l k)
/-- Weights averaged over the queries, then one contraction with the rows. -/
def poolK (X : ι → κ → EReal) (d : κ) : EReal := ∑ m, Ideal.div (∑ l, wgt (scoreK X) l m) countW * X m d
/-- Every attended row, then their average over the queries. -/
def poolR (X : ι → κ → EReal) (d : κ) : EReal := Ideal.div (∑ l, ∑ m, wgt (scoreR X) l m * X m d) countW

/-- Finite entries: the query-scaled scores are reals … -/
theorem scoreK_coe (x : ι → κ → ℝ) (s : ℝ) (hs : scaleW = (s : EReal)) (l m : ι) :
    scoreK (fun a b => (x a b : EReal)) l m = ((∑ d, x l d * s * x m d : ℝ) : EReal) := by
  unfold scoreK
  rw [hs, LibMaskedMean.coe_sum]
  refine Finset.sum_congr rfl fun d _ => ?_
  rw [EReal.coe_mul, EReal.coe_mul]

/-- … and so are the product-scaled ones … -/
theorem scoreR_coe (x : ι → κ → ℝ) (s : ℝ) (hs : scaleW = (s : EReal)) (l m : ι) :
    scoreR (fun a b => (x a b : EReal)) l m = (((∑ d, x l d * x m d) * s : ℝ) : EReal) := by
  unfold scoreR
  rw [hs, EReal.coe_mul, LibMaskedMean.coe_sum]
  congr 1

/-- … the same reals: the scale moves across the finite sum. -/
theorem score_eq (x : ι → κ → ℝ) :
    scoreK (fun a b => (x a b : EReal)) = scoreR (fun a b => (x a b : EReal)) := by
  obtain ⟨s, hs⟩ := scaleW_real
  funext l m
  rw [scoreK_coe x s hs, scoreR_coe x s hs, Finset.sum_mul]
  congr 1
  refine Finset.sum_congr rfl fun d _ => ?_
  ring

/-- A row of real scores has a real largest entry: the fold of `max` from `-∞` over the row is below `+∞` because
    every entry is, and above `-∞` because the row has an entry. -/
theorem rowTop_coe (sc : ι → ι → ℝ) (l : ι) : ∃ M : ℝ, rowTop (fun a b => (sc a b : EReal)) l = (M : EReal) := by
  have hneg : negInfW = ⊥ := LibKeepdims.negInf_f32
  unfold rowTop
  rw [hneg, max_eq_right bot_le]
  have h1 : Finset.univ.fold max (⊥ : EReal) (fun k => (sc l k : EReal)) ≠ ⊤ :=
    ne_of_lt ((Finset.fold_max_lt _).2 ⟨bot_lt_top, fun k _ => EReal.coe_lt_top _⟩)
  have h2 : Finset.univ.fold max (⊥ : EReal) (fun k => (sc l k : EReal)) ≠ ⊥ :=
    ne_of_gt ((Finset.lt_fold_max _).2 (Or.inr ⟨l, Finset.mem_univ _, EReal.bot_lt_coe _⟩))
  exact ⟨_, (EReal.coe_toReal h1 h2).symm⟩

/-- The softmax weights of a real score matrix are reals: each exponential is a positive real, so the normalising
    sum is a positive real and the quotient is the product with its reciprocal. -/
theorem wgt_coe (sc : ι → ι → ℝ) :
    ∃ w : ι → ι → ℝ, ∀ l m, wgt (fun a b => (sc a b : EReal)) l m = (w l m : EReal) := by
  choose M hM using rowTop_coe sc
  refine ⟨fun l m => Real.exp (sc l m - M l) * (1 / ∑ k, Real.exp (sc l k - M l)), fun l m => ?_⟩
  have he : ∀ k, expo (fun a b => (sc a b : EReal)) l k = ((Real.exp (sc l k - M l) : ℝ) : EReal) := fun k => by
    unfold expo
    rw [hM l, ← EReal.coe_sub, Ideal.exp_coe]
  have hpos : (∑ k, Real.exp (sc l k - M l)) ≠ 0 :=
    ne_of_gt (Finset.sum_pos (fun k _ => Real.exp_pos _) ⟨l, Finset.mem_univ l⟩)
  unfold wgt
  simp only [he]
  rw [← LibMaskedMean.coe_sum, Ideal.div_coe hpos, ← EReal.coe_mul]

/-- For real weights and real entries the two averages agree: exchange the two finite sums and move the division
    by the count across the sum. -/
theorem pool_coe (w : ι → ι → ℝ) (x : ι → κ → ℝ) (d : κ) :
    (∑ m, Ideal.div (∑ l, (w l m : EReal)) countW * (x m d : EReal))
      = Ideal.div (∑ l, ∑ m, (w l m : EReal) * (x m d : EReal)) countW := by
  have h : (1024 : ℝ) ≠ 0 := by norm_num
  rw [countW_eq]
  simp only [Ideal.div_coe h, ← LibMaskedMean.coe_sum, ← EReal.coe_mul]
  congr 1
  rw [Finset.sum_comm, Finset.sum_mul]
  refine Finset.sum_congr rfl fun m _ => ?_
  rw [Finset.sum_mul, Finset.sum_mul, Finset.sum_mul]
  refine Finset.sum_congr rfl fun l _ => ?_
  ring

/-- THE LAW: for finite entries, averaging the weights first and contracting once gives the average of the attended
    rows. -/
theorem poolK_eq_poolR (X : ι → κ → EReal) (hX : ∀ l d, ∃ r : ℝ, X l d = (r : EReal)) (d : κ) :
    poolK X d = poolR X d := by
  choose x hx using hX
  obtain rfl : X = fun a b => (x a b : EReal) := funext fun a => funext fun b => hx a b
  obtain ⟨s, hs⟩ := scaleW_real
  have hK : scoreK (fun a b => (x a b : EReal)) = fun l m => ((∑ d, x l d * s * x m d : ℝ) : EReal) :=
    funext fun l => funext fun m => scoreK_coe x s hs l m
  obtain ⟨w, hw⟩ := wgt_coe (fun l m => ∑ d, x l d * s * x m d)
  unfold poolK poolR
  rw [← score_eq x, hK]
  simp only [hw]
  exact pool_coe w x d

end Cert.AttnPool

end
-- ==== Proof.KernelStages.lean ====
/-
  The arithmetic of one grid step of the kernel, read entry by entry over the extended reals.

  A step holds one group's block `x` of 1024 rows and 512 features and the 8 × 512 accumulator. It forms the scores
  `∑ c, (x l c · s) · x m c` by a rows-by-rows product, the softmax weights row by row (largest score of the row, shifted
  exponentials, their row sum, the quotient), the column means of the weights `(∑ l, w l m) / 1024`, and the pooled
  row `∑ m, mean m · x m d` by a one-row product; it then adds the pooled row into the accumulator's row whose number is
  the step's position in its chunk, by multiplying with a column that is `1` on that row and `0` on the others.
  Each stage is named here as a function of the one before, the step's stored value is their composition, and each
  stage is read at an index; composed, the stored value at `(r, d)` is the accumulator's entry plus the mask's entry
  times `Cert.AttnPool.poolK` of the block's rows at `d`.
-/
import proofs.«142649_j66855460930242_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«142649_j66855460930242_2_alg».proof.Proof.LibKeepdims
import proofs.«142649_j66855460930242_2_alg».proof.Proof.LibMatmulIdx
import proofs.«142649_j66855460930242_2_alg».proof.Proof.LibRowSum
import proofs.«142649_j66855460930242_2_alg».proof.Proof.LibColSum
import proofs.«142649_j66855460930242_2_alg».proof.Proof.PoolLaw

open scoped BigOperators

noncomputable section

namespace Cert.KernelIdeal.Pool

open Cert.KernelIdeal Cert.KernelIdeal.Gen Idealize.ShloMosaic Idealize.ShloMosaic.ValueIdx Cert.AttnPool

/-- A 1024 × 512 block as a matrix of rows and features. -/
def rowsOf (x : FVec Ideal S1024x512 .f32) : Fin 1024 → Fin 512 → EReal := fun l d => x (ix2 l d)
/-- A 1024 × 1024 array as a matrix of queries and keys. -/
def matOf (s : FVec Ideal S1024x1024 .f32) : Fin 1024 → Fin 1024 → EReal := fun l m => s (ix2 l m)

/-! ## The stages -/

/-- The scores: the block with the scale on its entries, against the block, rows by rows. -/
def scoresV (x : FVec Ideal S1024x512 .f32) : FVec Ideal S1024x1024 .f32 :=
  matmul dot_S1024x512_S1024x512_S1024x1024_1_1_0_0_n_n none
    (truncf .bf16 (mulf x (broadcast S1024x512 (Scalar.ofBits .f32 0x3D3504F3#32))) bitsLt_bf16_f32)
    (truncf .bf16 x bitsLt_bf16_f32) (constant S1024x1024 .f32 0x00000000#32)

/-- Each row's largest score. -/
def rowMaxV (s : FVec Ideal S1024x1024 .f32) : FVec Ideal S1024 .f32 :=
  maximumf (broadcast S1024 (Scalar.ofBits .f32 0xFF800000#32))
    (multiReduction .maximumf [1] S1024 s 0xFF800000#32 reduces_S1024x1024_S1024 (.inl rfl) rfl)

/-- The exponentials of the scores shifted by their row's largest. -/
def expV (s : FVec Ideal S1024x1024 .f32) : FVec Ideal S1024x1024 .f32 :=
  exp (subf s (broadcastTo S1024x1024 (shapeCast S1024x1 (rowMaxV s) shapeCasts_S1024_S1024x1) broadcasts_S1024x1_S1024x1024))

/-- The softmax weights: each exponential over its row's sum. -/
def weightsV (s : FVec Ideal S1024x1024 .f32) : FVec Ideal S1024x1024 .f32 :=
  divf (expV s) (broadcastTo S1024x1024
    (shapeCast S1024x1 (multiReduction .add [1] S1024 (expV s) 0x00000000#32 reduces_S1024x1024_S1024 (.inl rfl) rfl)
      shapeCasts_S1024_S1024x1) broadcasts_S1024x1_S1024x1024)

/-- The weights' column means, as one row. -/
def meanV (s : FVec Ideal S1024x1024 .f32) : FVec Ideal S1x1024 .f32 :=
  divf (shapeCast S1x1024 (multiReduction .add [0] S1024 (weightsV s) 0x00000000#32 reduces_S1024x1024_S1024_2 (.inl rfl) rfl)
      shapeCasts_S1024_S1x1024) (broadcast S1x1024 (Scalar.ofBits .f32 0x44800000#32))

/-- The pooled row: the means against the block, rows by columns. -/
def poolV (x : FVec Ideal S1024x512 .f32) : FVec Ideal S1x512 .f32 :=
  matmul dot_S1x1024_S1024x512_S1x512_1_0_0_1_n_n none (truncf .bf16 (meanV (scoresV x)) bitsLt_bf16_f32)
    (truncf .bf16 x bitsLt_bf16_f32) (constant S1x512 .f32 0x00000000#32)

/-- The column that is `1` on the row whose number is the step's second grid coordinate and `0` elsewhere. -/
def maskV (i : grid0.Coords) : FVec Ideal S8x1 .f32 :=
  sitofp .f32 (extui 32 (cmpi .eq (iota .tc S8x1 32 [0] iota_S8x1_d0_w32) (broadcast S8x1 (BitVec.ofNat 32 (i 1).val))) natLt_1_32)

/-- The step's stored value is the composition of the stages. -/
theorem pay2_eq (i : grid0.Coords) (x : Vec Ideal S1024x512 .f32) (acc : Vec Ideal S8x512 .f32) :
    k0_pay2 (F := Ideal) i x acc
      = shapeCast S8x512 (addf acc (mulf (broadcastTo S8x512 (maskV i) broadcasts_S8x1_S8x512)
          (broadcastTo S8x512 (poolV x) broadcasts_S1x512_S8x512))) shapeCasts_S8x512_S8x512 := rfl

/-! ## The stages read at an index -/

theorem scoresV_apply (x : FVec Ideal S1024x512 .f32) (l m : Fin 1024) :
    scoresV x (ix2 l m) = scoreK (rowsOf x) l m := by
  refine (LibMatmulIdx.matmul_rr_apply dot_S1024x512_S1024x512_S1024x1024_1_1_0_0_n_n_wf none _ _ l m).trans ?_
  rfl

theorem matOf_scoresV (x : FVec Ideal S1024x512 .f32) : matOf (scoresV x) = scoreK (rowsOf x) :=
  funext fun l => funext fun m => scoresV_apply x l m

theorem rowMaxV_apply (s : FVec Ideal S1024x1024 .f32) (l : Fin 1024) :
    rowMaxV s (ix1 l) = rowTop (matOf s) l := by
  unfold rowMaxV rowTop
  rw [maximumf_apply, LibKeepdims.rowMax_apply s 0xFF800000#32 reduces_S1024x1024_S1024 (.inl rfl) rfl l]
  rfl

theorem expV_apply (s : FVec Ideal S1024x1024 .f32) (l m : Fin 1024) :
    expV s (ix2 l m) = expo (matOf s) l m := by
  show Ideal.exp (s (ix2 l m) - broadcastTo S1024x1024 (shapeCast S1024x1 (rowMaxV s) shapeCasts_S1024_S1024x1)
    broadcasts_S1024x1_S1024x1024 (ix2 l m)) = _
  rw [LibKeepdims.broadcastTo_a1_ab_apply, LibKeepdims.shapeCast_a_a1_apply, rowMaxV_apply]
  rfl

theorem weightsV_apply (s : FVec Ideal S1024x1024 .f32) (l m : Fin 1024) :
    weightsV s (ix2 l m) = wgt (matOf s) l m := by
  show Ideal.div (expV s (ix2 l m)) (broadcastTo S1024x1024
    (shapeCast S1024x1 (multiReduction .add [1] S1024 (expV s) 0x00000000#32 reduces_S1024x1024_S1024 (.inl rfl) rfl)
      shapeCasts_S1024_S1024x1) broadcasts_S1024x1_S1024x1024 (ix2 l m)) = _
  rw [LibKeepdims.broadcastTo_a1_ab_apply, LibKeepdims.shapeCast_a_a1_apply,
    LibRowSum.rowSum_apply (expV s) 0x00000000#32 reduces_S1024x1024_S1024 (.inl rfl) rfl l, expV_apply]
  unfold wgt
  refine congrArg (Ideal.div _) (Finset.sum_congr rfl fun k _ => expV_apply s l k)

theorem meanV_apply (s : FVec Ideal S1024x1024 .f32) (m : Fin 1024) :
    meanV s (ix2 (0 : Fin 1) m) = Ideal.div (∑ l, wgt (matOf s) l m) countW := by
  show Ideal.div (shapeCast S1x1024 (multiReduction .add [0] S1024 (weightsV s) 0x00000000#32 reduces_S1024x1024_S1024_2 (.inl rfl) rfl)
      shapeCasts_S1024_S1x1024 (ix2 (0 : Fin 1) m)) (Ideal.ofBits .f32 0x44800000#32) = _
  rw [shapeCast_a_1a_apply, LibColSum.colSum_apply (weightsV s) 0x00000000#32 reduces_S1024x1024_S1024_2 (.inl rfl) rfl m]
  refine congrArg (fun z => Ideal.div z countW) (Finset.sum_congr rfl fun l _ => weightsV_apply s l m)

theorem poolV_apply (x : FVec Ideal S1024x512 .f32) (d : Fin 512) :
    poolV x (ix2 (0 : Fin 1) d) = poolK (rowsOf x) d := by
  refine (LibMatmulIdx.matmul_rc_apply dot_S1x1024_S1024x512_S1x512_1_0_0_1_n_n_wf none _ _ (0 : Fin 1) d).trans ?_
  unfold poolK
  refine Finset.sum_congr rfl fun m _ => ?_
  show meanV (scoresV x) (ix2 (0 : Fin 1) m) * x (ix2 m d) = _
  rw [meanV_apply, matOf_scoresV]
  rfl

/-- The mask column at row `r`: `1` when `r` is the step's position in its chunk, `0` otherwise. -/
theorem maskV_apply (i : grid0.Coords) (r : Fin 8) (hi : (i 1).val < 8) :
    maskV i (ix2 r (0 : Fin 1)) = if r.val = (i 1).val then (1 : EReal) else 0 := by
  show (((((IntOp.cmpi .eq (iota .tc S8x1 32 [0] iota_S8x1_d0_w32 (ix2 r (0 : Fin 1))) (BitVec.ofNat 32 (i 1).val)).setWidth 32).toInt : ℤ) : ℝ) : EReal) = _
  rw [iota_single_apply]
  show (((((IntOp.cmpi .eq (BitVec.ofNat 32 r.val) (BitVec.ofNat 32 (i 1).val)).setWidth 32).toInt : ℤ) : ℝ) : EReal) = _
  have hr : r.val < 8 := r.isLt
  generalize (i 1).val = s at hi ⊢
  generalize r.val = q at hr ⊢
  interval_cases q <;> interval_cases s <;> simp [IntOp.cmpi]

/-- The reset's stored value is zero everywhere. -/
theorem pay1_apply (j : S8x512.Idx) : k0_pay1 (F := Ideal) j = 0 := by
  show shapeCast S8x512 (broadcast S8x512 (Scalar.ofBits (F := Ideal) .f32 0x00000000#32)) shapeCasts_S8x512_S8x512 j = 0
  rw [shapeCast_self]
  exact Ideal.ofBits_zero_f32

/-- THE STEP'S STORED VALUE at `(r, d)`: the accumulator's entry plus the mask's entry times the pooled row at `d`. -/
theorem pay2_apply (i : grid0.Coords) (hi : (i 1).val < 8) (x : Vec Ideal S1024x512 .f32) (acc : Vec Ideal S8x512 .f32)
    (r : Fin 8) (d : Fin 512) :
    k0_pay2 (F := Ideal) i x acc (ix2 r d)
      = acc (ix2 r d) + (if r.val = (i 1).val then (1 : EReal) else 0) * poolK (rowsOf x) d := by
  rw [pay2_eq, shapeCast_self]
  show acc (ix2 r d) + broadcastTo S8x512 (maskV i) broadcasts_S8x1_S8x512 (ix2 r d)
      * broadcastTo S8x512 (poolV x) broadcasts_S1x512_S8x512 (ix2 r d) = _
  rw [LibKeepdims.broadcastTo_a1_ab_apply, broadcastTo_1b_ab_apply, maskV_apply i r hi, poolV_apply]

end Cert.KernelIdeal.Pool

end
-- ==== Proof.Spec.lean ====
/-
  The specification: what the 64 × 512 result holds as ONE function of the 65536 × 512 argument array.

  The argument's rows come in 64 consecutive groups of 1024; row `l` of group `g` is row `1024 g + l` of the array.
  The result's row `g` is the mean-pooled self-attention of group `g` (`Cert.AttnPool.poolR`): the average over the
  group's queries of the softmax-weighted rows of the group.
-/
import Idealize.ShloMosaic.Lib.ValueIdx
import proofs.«142649_j66855460930242_2_alg».proof.Proof.PoolLaw

noncomputable section

namespace Cert.AttnPool

open Idealize.ShloMosaic Idealize.ShloMosaic.ValueIdx

/-- Where row `l`, feature `d` of group `g` sits in the whole array. -/
def rowIdx (g : Fin 64) (l : Fin 1024) (d : Fin 512) : (⟨2, ![65536, 512]⟩ : Shape).Idx :=
  ix2 (⟨1024 * g.val + l.val, by have := g.isLt; have := l.isLt; omega⟩ : Fin 65536) d

/-- Group `g` of the array, as a matrix of rows and features. -/
def groupOf (A : (⟨2, ![65536, 512]⟩ : Shape).Idx → EReal) (g : Fin 64) : Fin 1024 → Fin 512 → EReal :=
  fun l d => A (rowIdx g l d)

/-- The result: at `(g, d)`, the pooled attention of group `g` at feature `d`. -/
def result (A : (⟨2, ![65536, 512]⟩ : Shape).Idx → EReal) : (⟨2, ![64, 512]⟩ : Shape).Idx → EReal :=
  fun j => poolR (groupOf A (j 0)) (j 1)

theorem result_apply (A : (⟨2, ![65536, 512]⟩ : Shape).Idx → EReal) (g : Fin 64) (d : Fin 512) :
    result A (ix2 g d) = poolR (groupOf A g) d := rfl

end Cert.AttnPool

end
-- ==== Proof.KernelFold.lean ====
/-
  The kernel's result array, as one function of the argument.

  The 64 grid steps come in 8 chunks of 8. Step `t` stages rows `1024 t … 1024 t + 1023` of the argument: group `t`. By
  the step's arithmetic (the stored value is the accumulator plus a one-row mask times the pooled row of the step's
  group) the accumulator, after step `t` at position `s = t mod 8` of chunk `q = t / 8`, holds in its rows `0 … s` the
  pooled rows of groups `8 q … 8 q + s` and zero in the rows below: by induction on the step, the first step of a
  chunk starting from the cleared buffer. (`0 · x = 0`, `1 · x = x` and `0 + x = x` hold for every extended real, so this
  part uses no finiteness.) A last step of a chunk (`s = 7`) copies the full accumulator into block `q` of the result,
  rows `8 q … 8 q + 7`; these eight blocks cover the result. So the result's row `g` is the pooled row of group `g` in
  the kernel's form, `Cert.AttnPool.poolK`, which for a finite argument is the specification's `poolR`.
-/
import proofs.«142649_j66855460930242_2_alg».proof.Proof.Gen.KernelIdeal.Value
import proofs.«142649_j66855460930242_2_alg».proof.Proof.KernelPieces
import proofs.«142649_j66855460930242_2_alg».proof.Proof.KernelStages
import proofs.«142649_j66855460930242_2_alg».proof.Proof.Spec

noncomputable section

open Idealize.ShloMosaic Idealize.ShloMosaic.TcCoe Idealize.SL.Sem
open Idealize.ShloMosaic.Pipeline (Dat)

namespace Cert.AttnPool

open Idealize.ShloMosaic.ValueIdx

/-- The result in the kernel's form: at `(g, d)`, the weights of group `g` averaged first, then contracted. -/
def resultK (A : (⟨2, ![65536, 512]⟩ : Shape).Idx → EReal) : (⟨2, ![64, 512]⟩ : Shape).Idx → EReal :=
  fun j => poolK (groupOf A (j 0)) (j 1)

theorem resultK_apply (A : (⟨2, ![65536, 512]⟩ : Shape).Idx → EReal) (g : Fin 64) (d : Fin 512) :
    resultK A (ix2 g d) = poolK (groupOf A g) d := rfl

/-- For a finite argument the kernel's form is the specification. -/
theorem resultK_eq (A : (⟨2, ![65536, 512]⟩ : Shape).Idx → EReal) (hA : ∀ i, ∃ r : ℝ, A i = (r : EReal)) :
    resultK A = result A :=
  funext fun j => poolK_eq_poolR (groupOf A (j 0)) (fun l d => hA (rowIdx (j 0) l d)) (j 1)

/-- The pooled row of the group numbered `g` (zero for a number that is no group's). -/
def pooled (A : (⟨2, ![65536, 512]⟩ : Shape).Idx → EReal) (g : ℕ) (d : Fin 512) : EReal :=
  if h : g < 64 then poolK (groupOf A ⟨g, h⟩) d else 0

theorem pooled_of_lt (A : (⟨2, ![65536, 512]⟩ : Shape).Idx → EReal) {g : ℕ} (h : g < 64) (d : Fin 512) :
    pooled A g d = poolK (groupOf A ⟨g, h⟩) d := dif_pos h

end Cert.AttnPool

namespace Cert.KernelIdeal.Pool

open Cert.KernelIdeal Cert.KernelIdeal.Gen Idealize.ShloMosaic.ValueIdx Cert.AttnPool

variable (m : (ℓ : Loc nD τ sig) → Buf (Elt Ideal) ℓ) (ρ : Dev nD → PrngReg)

/-- The float argument on core `c`. -/
abbrev argA (c : Dev nD) : S65536x512.Idx → EReal := m ((c : Thread nD τ).loc main_arg0)

/-! ## The grid, decided once -/

/-- A step's second grid coordinate is its position in its chunk. -/
theorem coord1 : ∀ t : Fin cfg0.N, ((grid0.coords t) 1).val = t.val % 8 :=
  (by decide +kernel : ∀ t : Fin grid0.N, ((grid0.coords t) 1).val = t.val % 8)

/-- The input window's block at step `t` is block `(t, 0)` … -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- … and the output window's is block `(t / 8, 0)`. -/
theorem index1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)

/-! ## A step's input block is its group -/

theorem blk_at (c : Dev nD) (t : Fin cfg0.N) (l : Fin 1024) (d : Fin 512) :
    (iblk m c 0 t : Vec Ideal S1024x512 .f32) (ix2 l d)
      = argA m c (rowIdx ⟨t.val, lt_of_lt_of_eq t.isLt (show cfg0.N = 64 from N_0)⟩ l d) := by
  unfold iblk
  rw [View.read_apply]
  show m ((c : Thread nD τ).loc main_arg0) _ = m ((c : Thread nD τ).loc main_arg0) _
  refine congrArg (m ((c : Thread nD τ).loc main_arg0)) ?_
  obtain ⟨e0, e1⟩ := index0 t
  funext a; apply Fin.ext
  match a with
  | ⟨0, _⟩ => show win0_0.index t (0 : Fin 2) * 1024 + 1 * l.val = 1024 * t.val + l.val; omega
  | ⟨1, _⟩ => show win0_0.index t (1 : Fin 2) * 512 + 1 * d.val = d.val; omega

theorem rows_blk (c : Dev nD) (t : Fin cfg0.N) :
    rowsOf (iblk m c 0 t) = groupOf (argA m c) ⟨t.val, lt_of_lt_of_eq t.isLt (show cfg0.N = 64 from N_0)⟩ :=
  funext fun l => funext fun d => blk_at m c t l d

/-! ## One step, over any block and any accumulator -/

/-- If the accumulator holds the pooled rows of the chunk's earlier groups in its rows above position `n mod 8` and zero
    from there on, the step numbered `n`, on a block that is group `n`, leaves them in the rows up to and including that
    position. -/
theorem step_at (A : S65536x512.Idx → EReal) (i : grid0.Coords) (n : ℕ) (hN : n < 64) (hi : (i 1).val = n % 8)
    (x : Vec Ideal S1024x512 .f32) (hx : rowsOf x = groupOf A ⟨n, hN⟩) (prev : Vec Ideal S8x512 .f32)
    (hprev : ∀ (r : Fin 8) (d : Fin 512),
      prev (ix2 r d) = if r.val < n % 8 then pooled A (8 * (n / 8) + r.val) d else 0)
    (r : Fin 8) (d : Fin 512) :
    k0_pay2 (F := Ideal) i x prev (ix2 r d) = if r.val ≤ n % 8 then pooled A (8 * (n / 8) + r.val) d else 0 := by
  rw [pay2_apply i (by rw [hi]; omega) x prev r d, hprev r d, hi, hx, ← pooled_of_lt A hN d]
  have hr := r.isLt
  rcases lt_trichotomy r.val (n % 8) with h | h | h
  · rw [if_pos h, if_neg (by omega), if_pos (by omega), zero_mul, add_zero]
  · rw [if_neg (by omega), if_pos h, if_pos (by omega), one_mul, zero_add]
    refine congrArg (fun g => pooled A g d) ?_
    omega
  · rw [if_neg (by omega), if_neg (by omega), if_neg (by omega), zero_mul, add_zero]

/-! ## The accumulator after each step -/

/-- What a step finds in the accumulator when it loads it: the cleared buffer at a chunk's first step, otherwise
    what the step before left. -/
def prevOf (c : Dev nD) (n : ℕ) (hn : n < cfg0.N) : Vec Ideal S8x512 .f32 :=
  if n % 8 = 0 then k0_pay1 (F := Ideal)
  else (outsAt0 m c (n - 1) (Nat.lt_of_le_of_lt (Nat.sub_le _ _) hn)).2

/-- After any step the accumulator holds the step's value of its block over what it found. -/
theorem acc_after (c : Dev nD) (n : ℕ) (hn : n < cfg0.N) :
    (outsAt0 m c n hn).2 = k0_pay2 (F := Ideal) (grid0.coords ⟨n, hn⟩) (iblk m c 0 ⟨n, hn⟩) (prevOf m c n hn) := by
  unfold prevOf
  by_cases h0 : n % 8 = 0
  · have h1 : ¬n % 8 = 7 := by omega
    rw [if_pos h0, outsAt0_A m c ⟨n, hn⟩ h0 h1]
    dsimp only
    rw [acc_first]
  · rw [if_neg h0]
    by_cases h1 : n % 8 = 7
    · rw [outsAt0_C m c ⟨n, hn⟩ h0 h1]
      dsimp only
      rw [acc_last]
    · rw [outsAt0_B m c ⟨n, hn⟩ h0 h1]
      dsimp only
      rw [acc_middle]

/-- THE ACCUMULATOR after step `n`: rows `0 … n mod 8` hold the pooled rows of the chunk's groups so far, the rest zero. -/
theorem scratch_at (c : Dev nD) : ∀ (n : ℕ) (hn : n < cfg0.N) (r : Fin 8) (d : Fin 512),
    (outsAt0 m c n hn).2 (ix2 r d) = if r.val ≤ n % 8 then pooled (argA m c) (8 * (n / 8) + r.val) d else 0
  | 0, hn, r, d => by
    rw [acc_after m c 0 hn]
    refine step_at (argA m c) _ 0 (by omega) (coord1 ⟨0, hn⟩) _ (rows_blk m c ⟨0, hn⟩) _ (fun r' d' => ?_) r d
    unfold prevOf
    rw [if_pos (Nat.zero_mod 8), pay1_apply, if_neg (by omega)]
  | n + 1, hn, r, d => by
    have hN : n + 1 < 64 := lt_of_lt_of_eq hn (show cfg0.N = 64 from N_0)
    rw [acc_after m c (n + 1) hn]
    refine step_at (argA m c) _ (n + 1) hN (coord1 ⟨n + 1, hn⟩) _ (rows_blk m c ⟨n + 1, hn⟩) _ (fun r' d' => ?_) r d
    unfold prevOf
    by_cases h0 : (n + 1) % 8 = 0
    · rw [if_pos h0, pay1_apply, if_neg (by omega)]
    · rw [if_neg h0]
      show (outsAt0 m c n (Nat.lt_of_succ_lt hn)).2 (ix2 r' d') = _
      rw [scratch_at c n (Nat.lt_of_succ_lt hn) r' d']
      have hr := r'.isLt
      by_cases hr' : r'.val ≤ n % 8
      · rw [if_pos hr', if_pos (by omega)]
        refine congrArg (fun g => pooled (argA m c) g d') ?_
        omega
      · rw [if_neg hr', if_neg (by omega)]

/-! ## The result array -/

/-- At a chunk's last step the output block holds what the accumulator holds. -/
theorem out_eq_acc (c : Dev nD) (t : Fin cfg0.N) (h0 : ¬t.val % 8 = 0) (h7 : t.val % 8 = 7) :
    (outsAt0 m c t.val t.isLt).1 = (outsAt0 m c t.val t.isLt).2 := by
  rw [outsAt0_C m c t h0 h7]
  dsimp only
  rw [out_last, acc_last]

/-- What a chunk's last step leaves, entry by entry, is the kernel-form result at the entry's place in the array. -/
theorem flushed_at (c : Dev nD) (t : Fin cfg0.N) (h7 : t.val % 8 = 7) (j : S8x512.Idx) :
    (outsAt0 m c t.val t.isLt).2 j = resultK (argA m c) (((cfg0.win 1).blk t).view.emb j) := by
  obtain ⟨r, d, rfl⟩ : ∃ (r : Fin 8) (d : Fin 512), j = ix2 r d := ⟨j 0, j 1, eq_ix2 j⟩
  have hN : t.val < 64 := lt_of_lt_of_eq t.isLt (show cfg0.N = 64 from N_0)
  have hr := r.isLt
  have hg : 8 * (t.val / 8) + r.val < 64 := by omega
  obtain ⟨e0, e1⟩ := index1 t
  have he : ((cfg0.win 1).blk t).view.emb (ix2 r d) = ix2 (⟨8 * (t.val / 8) + r.val, hg⟩ : Fin 64) d := by
    funext a; apply Fin.ext
    match a with
    | ⟨0, _⟩ => show win0_1.index t (0 : Fin 2) * 8 + 1 * r.val = 8 * (t.val / 8) + r.val; omega
    | ⟨1, _⟩ => show win0_1.index t (1 : Fin 2) * 512 + 1 * d.val = d.val; omega
  rw [scratch_at m c t.val t.isLt r d, if_pos (by omega), he, resultK_apply, pooled_of_lt _ hg]

/-- WHAT A FLUSHING STEP WRITES BACK is its block of the kernel-form result. -/
theorem flushed_eq (c : Dev nD) (t : Fin cfg0.N) (hf : (cfg0.win 1).flush t = true) :
    (dats m 0 c).flushed 1 t = ((cfg0.win 1).blk t).view.read (Elt Ideal) (resultK (argA m c)) := by
  have h7 : t.val % 8 = 7 := (flush0_1 t).mp hf
  have h0 : ¬t.val % 8 = 0 := by omega
  rw [Value.flushed1, out_eq_acc m c t h0 h7]
  funext j
  exact flushed_at m c t h7 j

/-- An index of the result is in step `t`'s block iff each coordinate is in the block's range. -/
theorem mem_blk (t : Fin cfg0.N) (i : S64x512.Idx) :
    i ∈ ((cfg0.win 1).blk t).view.set ↔ ∀ a : Fin 2, win0_1.index t a * S8x512.size a ≤ (i a).val
      ∧ (i a).val < win0_1.index t a * S8x512.size a + S8x512.size a := by
  show i ∈ ((View.whole main_v0).slice (win0_1.rect t)).set ↔ _
  rw [View.set_slice_whole, Rect.mem_set_unit]
  exact Iff.rfl

/-- Row `g` of the result is in the block flushed by the last step of chunk `g / 8`. -/
theorem cover (i : S64x512.Idx) :
    ∃ t : Fin cfg0.N, (cfg0.win 1).flush t = true ∧ i ∈ ((cfg0.win 1).blk t).view.set := by
  have hi0 : (i 0).val < 64 := (i 0).isLt
  have hi1 : (i 1).val < 512 := (i 1).isLt
  have hN : cfg0.N = 64 := N_0
  have hb : 8 * ((i 0).val / 8) + 7 < cfg0.N := by rw [hN]; omega
  refine ⟨⟨8 * ((i 0).val / 8) + 7, hb⟩, (flush0_1 _).mpr (by show (8 * ((i 0).val / 8) + 7) % 8 = 7; omega), ?_⟩
  rw [mem_blk]
  obtain ⟨e0, e1⟩ := index1 ⟨8 * ((i 0).val / 8) + 7, hb⟩
  have e0' : win0_1.index ⟨8 * ((i 0).val / 8) + 7, hb⟩ (0 : Fin 2) = (8 * ((i 0).val / 8) + 7) / 8 := e0
  intro a
  match a with
  | ⟨0, _⟩ =>
    show win0_1.index ⟨8 * ((i 0).val / 8) + 7, hb⟩ (0 : Fin 2) * 8 ≤ (i 0).val
      ∧ (i 0).val < win0_1.index ⟨8 * ((i 0).val / 8) + 7, hb⟩ (0 : Fin 2) * 8 + 8
    omega
  | ⟨1, _⟩ =>
    show win0_1.index ⟨8 * ((i 0).val / 8) + 7, hb⟩ (1 : Fin 2) * 512 ≤ (i 1).val
      ∧ (i 1).val < win0_1.index ⟨8 * ((i 0).val / 8) + 7, hb⟩ (1 : Fin 2) * 512 + 512
    omega

/-- THE RESULT ARRAY after the run is the kernel-form result of the argument. -/
theorem final (c : Dev nD) : (dats m 0 c).arrAt 1 cfg0.N = resultK (argA m c) :=
  (dats m 0 c).arrAt_eq_of_cover 1 (resultK (argA m c)) (flushed_eq m c) (fun i => cover i)

/-- The run, read: every weakly fair execution ends with the result array at the kernel-form result of the
    argument and the arguments unchanged. -/
theorem run : θ_run defs (onTc (τ := τ) (main (F := Ideal))) ⟨m, fun _ => 0, ρ⟩ fun r => ∀ c : Dev nD,
      r.2.mem ((c : Thread nD τ).loc main_v0) = resultK (argA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Pool

end
-- ==== Proof.RefRead.lean ====
/-
  The reference computes the specification.

  Its program reshapes the argument to 64 groups of 1024 rows, forms each group's scores by a batched product and
  scales them, takes the softmax along the keys (largest score of each row, shifted exponentials, their row sum, the
  quotient), contracts the weights with the group's rows, sums the attended rows over the queries and divides by
  their number. Read one operation at a time at the index `(g, l, m)`, `(g, l)` or `(g, d)`, each stage is the matching
  function of group `g` in `Cert.AttnPool`, and the last one is `Cert.AttnPool.result`.
-/
import proofs.«142649_j66855460930242_2_alg».proof.Proof.Gen.ReferenceIdeal.Read
import Idealize.ShloMosaic.Lib.ValueIdx
import Idealize.ShloMosaic.PureOps.Ideal.Laws
import proofs.«142649_j66855460930242_2_alg».proof.Proof.Spec

open scoped BigOperators

noncomputable section

namespace Cert.ReferenceIdeal.RefValue

open Cert.ReferenceIdeal Cert.ReferenceIdeal.Gen Cert.ReferenceIdeal.Read
open Idealize.ShloMosaic Idealize.ShloMosaic.ValueIdx Cert.AttnPool

variable (A : (⟨S65536x512, .f32⟩ : BufTy).Contents (Elt Ideal))

/-- The reshape puts `(g, l, k)` at row `1024 g + l`, feature `k`. -/
theorem v0_at (g : Fin 64) (l : Fin 1024) (k : Fin 512) :
    val_main_v0 (F := Ideal) A (ix3 g l k) = groupOf A g l k := by
  rw [val_main_v0_apply]
  refine congrArg A (funext fun a => Fin.ext ?_)
  have hg := g.isLt; have hl := l.isLt; have hk := k.isLt
  match a with
  | ⟨0, _⟩ => show ((g.val * 1024 + l.val) * 512 + k.val) / 512 = 1024 * g.val + l.val; omega
  | ⟨1, _⟩ => show ((g.val * 1024 + l.val) * 512 + k.val) % 512 = k.val; omega

/-- The batched product: a group's row `l` against its row `m`. -/
theorem v1_at (g : Fin 64) (l m : Fin 1024) :
    val_main_v1 (F := Ideal) A (ix3 g l m) = ∑ k : Fin 512, groupOf A g l k * groupOf A g m k := by
  rw [val_main_v1_apply]
  refine Finset.sum_congr rfl fun k _ => ?_
  have el : lidx_main_v1 (ix3 g l m) k = ix3 g l k := funext fun a => Fin.ext (by
    match a with | ⟨0, _⟩ => rfl | ⟨1, _⟩ => rfl | ⟨2, _⟩ => rfl)
  have er : ridx_main_v1 (ix3 g l m) k = ix3 g m k := funext fun a => Fin.ext (by
    match a with | ⟨0, _⟩ => rfl | ⟨1, _⟩ => rfl | ⟨2, _⟩ => rfl)
  rw [el, er, v0_at, v0_at]

/-- The scaled scores. -/
theorem v3_at (g : Fin 64) (l m : Fin 1024) :
    val_main_v3 (F := Ideal) A (ix3 g l m) = scoreR (groupOf A g) l m := by
  rw [val_main_v3_apply, v1_at, val_main_v2_apply, val_main_cst_apply]
  rfl

/-- The host's reduction by `max` from `-∞` over the last coordinate of any 64 × 1024 × 1024 array, read at `(g, l)`: the
    fold of `max` over that row's 1024 entries. -/
theorem rowFold (y : FVec Ideal S64x1024x1024 .f32) (g : Fin 64) (l : Fin 1024) :
    Host.reduce FloatOps.maximumf y (constant (F := Ideal) S_ .f32 0xFF800000#32) reducesTo_S64x1024x1024_S64x1024_d2 h_S_ (ix2 g l)
      = (Finset.univ : Finset (Fin 1024)).fold max negInfW (fun k => y (ix3 g l k)) := by
  have h : S64x1024x1024.Reduces [2] S64x1024 := by decide
  rw [Host.reduce_eq_fold_single FloatOps.maximumf y _ reducesTo_S64x1024x1024_S64x1024_d2 h h_S_]
  have hf : (y ∘ h.lift (ix2 g l)) = fun k : Fin 1024 => y (ix3 g l k) :=
    funext fun k => congrArg y (funext fun a => Fin.ext (by
      match a with | ⟨0, _⟩ => rfl | ⟨1, _⟩ => rfl | ⟨2, _⟩ => rfl))
  exact congrArg (fun f => Finset.fold max negInfW f (Finset.univ : Finset (Fin 1024))) hf

/-- Each row's largest score: the fold of `max` from `-∞` over the keys. -/
theorem v4_at (g : Fin 64) (l : Fin 1024) :
    val_main_v4 (F := Ideal) A (ix2 g l)
      = (Finset.univ : Finset (Fin 1024)).fold max negInfW (fun k => scoreR (groupOf A g) l k) := by
  refine (rowFold (val_main_v3 (F := Ideal) A) g l).trans ?_
  refine congrArg (fun f => Finset.fold max negInfW f (Finset.univ : Finset (Fin 1024))) (funext fun k => ?_)
  exact v3_at A g l k

theorem v6_at (g : Fin 64) (l : Fin 1024) :
    val_main_v6 (F := Ideal) A (ix2 g l) = rowTop (scoreR (groupOf A g)) l := by
  rw [val_main_v6_apply, val_main_v5_apply, val_main_cst_1_apply, v4_at]
  rfl

theorem v8_at (g : Fin 64) (l m : Fin 1024) :
    val_main_v8 (F := Ideal) A (ix3 g l m) = rowTop (scoreR (groupOf A g)) l := by
  rw [val_main_v8_apply, val_main_v7_apply]
  have e : idx_main_v7 (idx_main_v8 (ix3 g l m)) = ix2 g l := funext fun a => Fin.ext (by
    match a with | ⟨0, _⟩ => rfl | ⟨1, _⟩ => rfl)
  rw [e, v6_at]

/-- The shifted exponentials. -/
theorem v10_at (g : Fin 64) (l m : Fin 1024) :
    val_main_v10 (F := Ideal) A (ix3 g l m) = expo (scoreR (groupOf A g)) l m := by
  rw [val_main_v10_apply, val_main_v9_apply, v3_at, v8_at]
  rfl

/-- Their row sums. -/
theorem v11_at (g : Fin 64) (l : Fin 1024) :
    val_main_v11 (F := Ideal) A (ix2 g l) = ∑ k : Fin 1024, expo (scoreR (groupOf A g)) l k := by
  rw [val_main_v11_apply, val_main_cst_2_apply]
  show Ideal.ofBits .f32 0x00000000#32 + _ = _
  rw [Ideal.ofBits_zero_f32, zero_add]
  refine Finset.sum_congr rfl fun k _ => ?_
  have e : idx_main_v11 (ix2 g l) k = ix3 g l k := funext fun a => Fin.ext (by
    match a with | ⟨0, _⟩ => rfl | ⟨1, _⟩ => rfl | ⟨2, _⟩ => rfl)
  rw [e, v10_at]

/-- The softmax weights. -/
theorem v14_at (g : Fin 64) (l m : Fin 1024) :
    val_main_v14 (F := Ideal) A (ix3 g l m) = wgt (scoreR (groupOf A g)) l m := by
  rw [val_main_v14_apply, v10_at, val_main_v13_apply, val_main_v12_apply]
  have e : idx_main_v12 (idx_main_v13 (ix3 g l m)) = ix2 g l := funext fun a => Fin.ext (by
    match a with | ⟨0, _⟩ => rfl | ⟨1, _⟩ => rfl)
  rw [e, v11_at]
  rfl

/-- The attended rows. -/
theorem v15_at (g : Fin 64) (l : Fin 1024) (d : Fin 512) :
    val_main_v15 (F := Ideal) A (ix3 g l d) = ∑ m : Fin 1024, wgt (scoreR (groupOf A g)) l m * groupOf A g m d := by
  rw [val_main_v15_apply]
  refine Finset.sum_congr rfl fun k _ => ?_
  have el : lidx_main_v15 (ix3 g l d) k = ix3 g l k := funext fun a => Fin.ext (by
    match a with | ⟨0, _⟩ => rfl | ⟨1, _⟩ => rfl | ⟨2, _⟩ => rfl)
  have er : ridx_main_v15 (ix3 g l d) k = ix3 g k d := funext fun a => Fin.ext (by
    match a with | ⟨0, _⟩ => rfl | ⟨1, _⟩ => rfl | ⟨2, _⟩ => rfl)
  rw [el, er, v14_at, v0_at]

/-- Their sum over the queries. -/
theorem v16_at (g : Fin 64) (d : Fin 512) :
    val_main_v16 (F := Ideal) A (ix2 g d)
      = ∑ l : Fin 1024, ∑ m : Fin 1024, wgt (scoreR (groupOf A g)) l m * groupOf A g m d := by
  rw [val_main_v16_apply, val_main_cst_3_apply]
  show Ideal.ofBits .f32 0x00000000#32 + _ = _
  rw [Ideal.ofBits_zero_f32, zero_add]
  refine Finset.sum_congr rfl fun k _ => ?_
  have e : idx_main_v16 (ix2 g d) k = ix3 g k d := funext fun a => Fin.ext (by
    match a with | ⟨0, _⟩ => rfl | ⟨1, _⟩ => rfl | ⟨2, _⟩ => rfl)
  rw [e, v15_at]

/-- THE REFERENCE'S RESULT is the specification. -/
theorem ref_eq : val_main_v18 (F := Ideal) A = result A := by
  funext j
  obtain ⟨g, d, rfl⟩ : ∃ (g : Fin 64) (d : Fin 512), j = ix2 g d := ⟨j 0, j 1, eq_ix2 j⟩
  rw [val_main_v18_apply, v16_at, val_main_v17_apply, val_main_cst_4_apply, result_apply]
  rfl

end Cert.ReferenceIdeal.RefValue

end
-- ==== Proof.Finite.lean ====
/-
  The precondition, read: every entry of the float argument is a real.

  The precondition's function takes the absolute value of every entry, compares it with `+∞` by "less than", and
  reduces the comparisons by `and` over the whole array. If the result is `1`, every comparison was `1`, so at every
  index the larger of the entry and its negation is below `+∞`: the entry is not `+∞`, and not `-∞` either (whose
  negation is `+∞`). An extended real that is neither infinity is a real.
-/
import proofs.«142649_j66855460930242_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic

instance : Subsingleton S_.Idx := ⟨fun a b => funext fun d => d.elim0⟩

/-- The f32 word `0x7F800000` is `+∞`. -/
theorem posInf_f32 : Ideal.ofBits .f32 0x7F800000#32 = (⊤ : EReal) := by simp [Ideal.ofBits, Ideal.ieee]

/-- Where the precondition holds, every entry of the float argument is a real. -/
theorem entries_real (x : FVec Ideal S65536x512 .f32) (idx : IVec S65536 32)
    (h : fn (F := Ideal) x idx = fun _ => 1#1) (i : S65536x512.Idx) : ∃ r : ℝ, x i = (r : EReal) := by
  have h0 := congrFun h ValueIdx.ix0
  dsimp only [fn] at h0
  have hi := Host.reduce_andi_all _ _ _ _ _ h0 i
  have hb : BitVec.ofBool (decide (max (x i) (-(x i)) < Ideal.ofBits .f32 0x7F800000#32)) = 1#1 := hi
  rw [posInf_f32] at hb
  have hlt : max (x i) (-(x i)) < ⊤ := by
    by_contra hn
    rw [decide_eq_false hn] at hb
    exact absurd hb (by decide)
  have h1 : x i ≠ ⊤ := fun e => by rw [e] at hlt; simp at hlt
  have h2 : x i ≠ ⊥ := fun e => by rw [e] at hlt; simp at hlt
  exact ⟨(x i).toReal, (EReal.coe_toReal h1 h2).symm⟩

end Cert.Pre_finite_inputs.Finite

end
-- ==== Proof.lean ====
/-
  Mean-pooled grouped self-attention: the kernel against its reference, over the extended reals.

  The argument `x` has 65536 rows of 512 features, in 64 consecutive groups of 1024 rows. For each group both programs
  form the scores `s · ⟨x_l, x_m⟩` of every query row `l` against every key row `m`, turn each row of scores into softmax
  weights, and return the mean over the queries of the weighted sums of the group's rows: one row of 512 numbers per
  group.

  The reference scales the finished products, forms all 1024 attended rows of a group and averages them. The kernel
  scales the query before the product, averages the WEIGHTS over the queries first and contracts the averaged weights
  with the group's rows once; it handles one group per grid step and collects eight groups' rows in an accumulator
  (a one-row mask times the pooled row, added in) before writing the eight rows out together.

  For a finite argument the two results are equal (`Cert.AttnPool.poolK_eq_poolR`): the scores are the same reals,
  the weights are reals, and the two averages differ by an exchange of finite sums. That is where the precondition
  (every entry finite) is used; the grid bookkeeping needs none.

  Modules: PoolLaw (the law, no program), Spec (the result as one function of the argument), RefRead (the reference
  computes it), KernelStages (one step's arithmetic at an index), KernelPieces (what each kind of step leaves),
  KernelFold (the accumulator step by step, the result array, the kernel's run), Finite (the precondition read).
  The kernel's frame run and its blockwise value leg, the reference's run and its read-at-an-index lemmas are the
  generated modules imported below.
-/
import proofs.«142649_j66855460930242_2_alg».proof.Defs
import proofs.«142649_j66855460930242_2_alg».proof.Proof.Gen.Kernel
import proofs.«142649_j66855460930242_2_alg».proof.Proof.Gen.Kernel.Skeleton
import proofs.«142649_j66855460930242_2_alg».proof.Proof.Gen.Kernel.Launch
import proofs.«142649_j66855460930242_2_alg».proof.Proof.Gen.Kernel.Points
import proofs.«142649_j66855460930242_2_alg».proof.Proof.Gen.Kernel.Frame
import proofs.«142649_j66855460930242_2_alg».proof.Proof.Gen.KernelIdeal
import proofs.«142649_j66855460930242_2_alg».proof.Proof.Gen.KernelIdeal.Skeleton
import proofs.«142649_j66855460930242_2_alg».proof.Proof.Gen.KernelIdeal.Launch
import proofs.«142649_j66855460930242_2_alg».proof.Proof.Gen.KernelIdeal.Points
import proofs.«142649_j66855460930242_2_alg».proof.Proof.Gen.KernelIdeal.Frame
import proofs.«142649_j66855460930242_2_alg».proof.Proof.Gen.ReferenceIdeal
import proofs.«142649_j66855460930242_2_alg».proof.Proof.Gen.Pre_finite_inputs
import proofs.«142649_j66855460930242_2_alg».proof.Proof.Gen.KernelIdeal.Value
import proofs.«142649_j66855460930242_2_alg».proof.Proof.Gen.ReferenceIdeal.Run
import proofs.«142649_j66855460930242_2_alg».proof.Proof.Gen.ReferenceIdeal.Read
import proofs.«142649_j66855460930242_2_alg».proof.Proof.KernelFold
import proofs.«142649_j66855460930242_2_alg».proof.Proof.RefRead
import proofs.«142649_j66855460930242_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on a finite argument, the kernel ends with its result array at the kernel-form result,
    which is the specification because the argument is finite, and the reference ends at the specification. -/
theorem algebraic : Cert.algebraic_KernelIdeal_ReferenceIdeal := by
  intro m ρ m' ρ' hpre hagree
  have hA : ∀ (c : Dev Cert.KernelIdeal.nD) (i : Cert.KernelIdeal.S65536x512.Idx),
      ∃ r : ℝ, Cert.KernelIdeal.Pool.argA m c i = (r : EReal) :=
    fun c i => Cert.Pre_finite_inputs.Finite.entries_real _ _ (hpre c) i
  refine ⟨fun c => Cert.AttnPool.result (Cert.KernelIdeal.Pool.argA m c), ?_, ?_⟩
  · exact (θ_run Cert.KernelIdeal.defs _ _).mono
      (fun r h c => ⟨(h c).1.trans (Cert.AttnPool.resultK_eq _ (hA c)), (h c).2⟩) (Cert.KernelIdeal.Pool.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v18_eq, Cert.ReferenceIdeal.RefValue.ref_eq, (hagree c).1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
